-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S1200000 32) (main_arg2 : IVec S1200000 32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S10000x64 : Shape := ⟨2, ![10000, 64]⟩
abbrev S10000x1 : Shape := ⟨2, ![10000, 1]⟩
abbrev S1200000x64 : Shape := ⟨2, ![1200000, 64]⟩
abbrev S1x64 : Shape := ⟨2, ![1, 64]⟩

abbrev nBuf : Space → Nat
  | .hbm => 43
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S64x64, .f32⟩
  | .hbm, ⟨4, _⟩ => ⟨S64, .f32⟩
  | .hbm, ⟨5, _⟩ => ⟨S_, .f32⟩
  | .hbm, ⟨6, _⟩ => ⟨S1200000, .f32⟩
  | .hbm, ⟨7, _⟩ => ⟨S_, .f32⟩
  | .hbm, ⟨8, _⟩ => ⟨S100000, .f32⟩
  | .hbm, ⟨9, _⟩ => ⟨S1200000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1200000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x64, .bf16⟩
  | .hbm, ⟨28, _⟩ => ⟨S_, .i32⟩
  | .hbm, ⟨29, _⟩ => ⟨S1200000, .i32⟩
  | .hbm, ⟨30, _⟩ => ⟨S1200000, .i1⟩
  | .hbm, ⟨31, _⟩ => ⟨S_, .i32⟩
  | .hbm, ⟨32, _⟩ => ⟨S1200000, .i32⟩
  | .hbm, ⟨33, _⟩ => ⟨S1200000, .i32⟩
  | .hbm, ⟨34, _⟩ => ⟨S1200000, .i32⟩
  | .hbm, ⟨35, _⟩ => ⟨S1200000x1, .i32⟩
  | .hbm, ⟨36, _⟩ => ⟨S1200000x64, .bf16⟩
  | .hbm, ⟨37, _⟩ => ⟨S1200000x64, .f32⟩
  | .hbm, ⟨38, _⟩ => ⟨S_, .f32⟩
  | .hbm, ⟨39, _⟩ => ⟨S100000x64, .f32⟩
  | .hbm, ⟨40, _⟩ => ⟨S1200000x1, .i32⟩
  | .hbm, ⟨41, _⟩ => ⟨S100000x64, .f32⟩
  | .hbm, ⟨42, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S64x64, .f32⟩
  | .local _ .vmem, ⟨5, _⟩ => ⟨S10000x64, .bf16⟩
  | .local _ .vmem, ⟨6, _⟩ => ⟨S10000x64, .bf16⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S64, .f32⟩
  | .local _ .vmem, ⟨12, _⟩ => ⟨S10000x64, .f32⟩
  | .local _ .vmem, ⟨13, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  inb_S10000x64_S10000x64_0_0 : ∀ a, (![0, 0] : Fin 2 → Nat) a + S10000x64.size a ≤ S10000x64.size a
  h_S10000x64 : 0 < S10000x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  packedbf16_S10000x64_S10000x64_0_0 : (Rect.unit (s := S10000x64) ![0, 0] S10000x64.size inb_S10000x64_S10000x64_0_0).PackedRows (EltTy.packing .bf16)
  bcast_S_S100000x64 : S_.BroadcastsInDim S100000x64 (![] : Fin 0 → Fin S100000x64.rank)
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  shapeCasts_S10000x64_S10000x64 : S10000x64.ShapeCasts S10000x64
  scatter_S100000_S1200000x1_S1200000_n_0_0_1_wf : ScatterDims.WF S100000 S1200000x1 S1200000 [] [0] [0] 1
  dot_S10000x64_S64x64_S10000x64_1_0_0_1_n_n_wf : DotDims.WF S10000x64 S64x64 S10000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .bf16 = 32 ∨ (Rect.block (s := S100000x64) S10000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1200000x64 : Shape := ⟨2, ![1200000, 64]⟩
abbrev S1x64 : Shape := ⟨2, ![1, 64]⟩

abbrev nBuf : Space → Nat
  | .hbm => 48
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S64x64, .f32⟩
  | .hbm, ⟨4, _⟩ => ⟨S64, .f32⟩
  | .hbm, ⟨5, _⟩ => ⟨S_, .f32⟩
  | .hbm, ⟨6, _⟩ => ⟨S1200000, .f32⟩
  | .hbm, ⟨7, _⟩ => ⟨S_, .f32⟩
  | .hbm, ⟨8, _⟩ => ⟨S100000, .f32⟩
  | .hbm, ⟨9, _⟩ => ⟨S1200000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1200000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x64, .f32⟩
  | .hbm, ⟨22, _⟩ => ⟨S100000x64, .f32⟩
  | .hbm, ⟨23, _⟩ => ⟨S100000x64, .f32⟩
  | .hbm, ⟨24, _⟩ => ⟨S_, .i32⟩
  | .hbm, ⟨25, _⟩ => ⟨S1200000, .i32⟩
  | .hbm, ⟨26, _⟩ => ⟨S1200000, .i1⟩
  | .hbm, ⟨27, _⟩ => ⟨S_, .i32⟩
  | .hbm, ⟨28, _⟩ => ⟨S1200000, .i32⟩
  | .hbm, ⟨29, _⟩ => ⟨S1200000, .i32⟩
  | .hbm, ⟨30, _⟩ => ⟨S1200000, .i32⟩
  | .hbm, ⟨31, _⟩ => ⟨S1200000x1, .i32⟩
  | .hbm, ⟨32, _⟩ => ⟨S1200000x64, .f32⟩
  | .hbm, ⟨33, _⟩ => ⟨S_, .f32⟩
  | .hbm, ⟨34, _⟩ => ⟨S100000x64, .f32⟩
  | .hbm, ⟨35, _⟩ => ⟨S1200000x1, .i32⟩
  | .hbm, ⟨36, _⟩ => ⟨S100000x64, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S100000x64, .f32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_call1_v0 : Ref sig .tc := ⟨.hbm, 38, rfl⟩
abbrev main_call1_v1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1200000x1_S1200000_n_0_0_1_wf : ScatterDims.WF S100000 S1200000x1 S1200000 [] [0] [0] 1
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

class Facts : Prop extends Facts₀ where

variable [Facts]
-- ==== Proof.HeldRun.lean ====
/-
  The idealized kernel's run, with every buffer named.

  @main is a chain of host stretches and two tiled regions. Running it from a launch memory `m`, every weakly fair
  execution terminates, and the final memory holds, at every unscoped buffer `b` of a core, the contents that the
  fold through @main's segments assigns to `b`: host stretches applied one after another to the launch contents, each
  region replacing its output array by what its write-backs leave. The frame claim only keeps the arguments from this
  fold; the value claim also reads the result buffer from it.
-/
import proofs.«139091_j35871566856870_2_alg».proof.Proof.Gen.KernelIdeal.Frame

set_option maxRecDepth 16384

noncomputable section

namespace Cert.KernelIdeal.Held

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every final memory holds each unscoped
    buffer of each core at the last segment boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The result buffer is unscoped, so the run pins it. -/
theorem result_mem : Proc.devRef .tc main_v25 ∈ Pipeline.ucRefs τ sig := mem_uc main_v25 (by decide)

end Cert.KernelIdeal.Held

end
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.LibColumnLayout.lean ====
/-
  Three re-layings of a matrix's rows and columns read at an index `(p, c)`, for any extents `a`, `b`, over any element
  type (the sum over the extended reals):
  * a column `[a, 1]` repeated along `b` lanes reads, at `(p, c)`, the column's entry `(p, 0)`;
  * a vector `[a]` cast to a column `[a, 1]` reads, at `(p, 0)`, the vector's entry `p`;
  * the sum of a matrix `[a, b]` along its lanes reads, at row `p`, the sum over `c` of the entries `(p, c)`.
  Together they read a "sum over the lanes, keep the axis" at a row. They complete the library's forms for a row
  `[1, b]` repeated down `a` rows and a vector `[a]` cast to a row `[1, a]`.
-/
import Idealize.ShloMosaic.Lib.Pipeline.Value
import Idealize.ShloMosaic.Lib.ValueIdx
import Idealize.ShloMosaic.Lib.ValueLayout
import Idealize.ShloMosaic.PureOps.Ideal.Laws

noncomputable section

namespace Cert.ColumnLayout

open Idealize.ShloMosaic Idealize.ShloMosaic.ValueIdx

variable {α : Type}

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(p, u)`, the vector at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum of a matrix `[a, b]` along its second axis, started from the additive neutral word, read at row `p` over the
    extended reals: the sum over the lanes `c` of the entries `(p, c)`. -/
theorem laneSum_apply {a b : ℕ} (src : FVec Ideal ⟨2, ![a, b]⟩ .f32) (acc : BitVec FTy.f32.bits)
    (h : (⟨2, ![a, b]⟩ : Shape).Reduces [(1 : Fin 2)] ⟨1, ![a]⟩) (hφ : FKind.Formats .f32)
    (hacc : acc = FKind.add.neutral .f32 hφ) (p : Fin a) :
    multiReduction .add [(1 : Fin 2)] ⟨1, ![a]⟩ src acc h hφ hacc (ix1 p) = ∑ c : Fin b, src (ix2 p c) := by
  refine (Ideal.multiReduction_add_single src acc h hφ hacc (ix1 p)).trans ?_
  show ∑ c : Fin b, src (h.lift (ix1 p) c) = _
  refine Finset.sum_congr rfl fun c _ => congrArg src (funext fun d => Fin.ext ?_)
  match d with
  | ⟨0, _⟩ => rfl
  | ⟨1, _⟩ => rfl

end Cert.ColumnLayout

end
-- ==== Proof.Bodies.lean ====
/-
  The two kernel bodies read at an entry, over the extended reals.

  The first body scales each row of a tile of 10000 rows by that row's factor (a column of one lane repeated along the
  64 lanes), multiplies the tile by the 64 x 64 weight matrix, and stores the product; narrowing to sixteen bits and
  back is the identity here. At row `p`, lane `q`, it leaves  ∑ k, (x (p, k) · s (p, 0)) · w (k, q).

  The second body scales each row of a tile by that row's factor and adds a bias vector repeated down the rows. At row
  `p`, lane `q`, it leaves  a (p, q) · s (p, 0) + b q.
-/
import proofs.«139091_j35871566856870_2_alg».proof.Proof.Gen.KernelIdeal.Frame
import proofs.«139091_j35871566856870_2_alg».proof.Proof.LibMatmul
import proofs.«139091_j35871566856870_2_alg».proof.Proof.LibColumnLayout
import Idealize.ShloMosaic.Lib.ValueLayout
import Idealize.ShloMosaic.Lib.ValueIdx
import Idealize.ShloMosaic.Lib.Pipeline.Value

set_option maxRecDepth 16384

noncomputable section

namespace Cert.KernelIdeal.Bodies

open Cert.KernelIdeal Cert.KernelIdeal.Gen
open Idealize.ShloMosaic Idealize.ShloMosaic.TcCoe Idealize.ShloMosaic.ValueIdx
open scoped BigOperators

theorem zeros2 : (![0, 0] : Fin 2 → Nat) = fun _ => 0 := funext fun a => by fin_cases a <;> rfl
theorem zeros1 : (![0] : Fin 1 → Nat) = fun _ => 0 := funext fun a => by fin_cases a; rfl

/-- The first body's product contracts the tile's lanes with the weight's rows and has no batch axis. -/
theorem plain : PlainMatmul.IsPlain dot_S10000x64_S64x64_S10000x64_1_0_0_1_n_n := ⟨rfl, rfl, rfl, rfl, rfl, rfl⟩

/-- What the first body leaves at row `p`, lane `q` of its output tile. -/
theorem prescale_matmul_apply (x : Vec Ideal S10000x64 .f32) (s : Vec Ideal S10000x1 .f32) (w : Vec Ideal S64x64 .f32)
    (p : Fin 10000) (q : Fin 64) :
    out0_3 (F := Ideal) x s w (ix2 p q) = ∑ k : Fin 64, (x (ix2 p k) * s (ix2 p (0 : Fin 1))) * w (ix2 k q) := by
  unfold out0_3
  rw [View.canon_unit_zero zeros2]
  simp only [View.ld_unit_zero (S := S10000x64) zeros2, View.ld_unit_zero (S := S10000x1) zeros2, View.ld_unit_zero (S := S64x64) zeros2]
  unfold k0_pay1
  refine (PlainMatmul.apply plain none _ _ p q).trans ?_
  refine Finset.sum_congr rfl fun k _ => ?_
  refine congrArg (· * w (ix2 k q)) ?_
  show x (ix2 p k) * broadcastTo S10000x64 (shapeCast S10000x1 s shapeCasts_S10000x1_S10000x1) broadcasts_S10000x1_S10000x64 (ix2 p k) = _
  rw [shapeCast_self, Cert.ColumnLayout.broadcastTo_a1_ab_apply]

/-- What the second body leaves at row `p`, lane `q` of its output tile. -/
theorem postscale_bias_apply (a : Vec Ideal S10000x64 .f32) (s : Vec Ideal S10000x1 .f32) (b : Vec Ideal S64 .f32)
    (p : Fin 10000) (q : Fin 64) :
    out1_3 (F := Ideal) a s b (ix2 p q) = a (ix2 p q) * s (ix2 p (0 : Fin 1)) + b (ix1 q) := by
  unfold out1_3
  rw [View.canon_unit_zero zeros2]
  simp only [View.ld_unit_zero (S := S10000x64) zeros2, View.ld_unit_zero (S := S10000x1) zeros2, View.ld_unit_zero (S := S64) zeros1]
  unfold k1_pay1
  show shapeCast S10000x64 a shapeCasts_S10000x64_S10000x64 (ix2 p q)
      * broadcastTo S10000x64 (shapeCast S10000x1 s shapeCasts_S10000x1_S10000x1) broadcasts_S10000x1_S10000x64 (ix2 p q)
      + broadcastTo S10000x64 (shapeCast S1x64 b shapeCasts_S64_S1x64) broadcasts_S1x64_S10000x64 (ix2 p q) = _
  rw [shapeCast_self, shapeCast_self, Cert.ColumnLayout.broadcastTo_a1_ab_apply, broadcastTo_1b_ab_apply, shapeCast_a_1a_apply]

end Cert.KernelIdeal.Bodies

end
-- ==== Proof.Spec.lean ====
/-
  The two dense steps of the graph convolution as whole-array functions, over the extended reals.

  `scaledProduct x s w` is the matrix `(diag s · x) · w`: at node `n`, feature `f` it is
  ∑ k, (x (n, k) · s (n, 0)) · w (k, f), the node's row scaled by the node's factor and contracted with the weights.

  `scaledShift a s b` is `diag s · a + 1 bᵀ`: at node `n`, feature `f` it is a (n, f) · s (n, 0) + b f.

  Both are stated entry by entry with no order or grouping of the sum, so a tiling of the node axis does not show.
-/
import Idealize.ShloMosaic.PureOps.Ideal
import Idealize.ShloMosaic.Lib.ValueIdx

noncomputable section

namespace Cert.GraphConv

open Idealize.ShloMosaic Idealize.ShloMosaic.ValueIdx
open scoped BigOperators

/-- Node `i 0`'s row, scaled by the node's factor, against column `i 1` of the weights. -/
def scaledProduct (x : (⟨2, ![100000, 64]⟩ : Shape).Idx → EReal) (s : (⟨2, ![100000, 1]⟩ : Shape).Idx → EReal)
    (w : (⟨2, ![64, 64]⟩ : Shape).Idx → EReal) : (⟨2, ![100000, 64]⟩ : Shape).Idx → EReal :=
  fun i => ∑ k : Fin 64, (x (ix2 (i 0) k) * s (ix2 (i 0) (0 : Fin 1))) * w (ix2 k (i 1))

/-- The entry scaled by its node's factor, plus the feature's bias. -/
def scaledShift (a : (⟨2, ![100000, 64]⟩ : Shape).Idx → EReal) (s : (⟨2, ![100000, 1]⟩ : Shape).Idx → EReal)
    (b : (⟨1, ![64]⟩ : Shape).Idx → EReal) : (⟨2, ![100000, 64]⟩ : Shape).Idx → EReal :=
  fun i => a i * s (ix2 (i 0) (0 : Fin 1)) + b (ix1 (i 1))

end Cert.GraphConv

end
-- ==== Proof.Tiles.lean ====
/-
  From tiles to arrays: what each of the two tiled regions leaves in its output array.

  Both regions cut the 100000 nodes into ten tiles of 10000 consecutive nodes and visit each tile once. At tile `t` the
  per-node operands (the rows and the column of factors) are read at nodes 10000·t … 10000·t + 9999, the weight matrix
  and the bias whole. So the entry of the output tile at local row `p` is the entry of the whole-array function at node
  10000·t + p; every node lies in exactly the tile `n / 10000`, so the tiles cover the array and it ends holding the
  whole-array function: `scaledProduct` for the first region, `scaledShift` for the second. Both statements hold at any
  contents `V` the region is entered with.
-/
import proofs.«139091_j35871566856870_2_alg».proof.Proof.Gen.KernelIdeal.Frame
import proofs.«139091_j35871566856870_2_alg».proof.Proof.Bodies
import proofs.«139091_j35871566856870_2_alg».proof.Proof.Spec
import Idealize.ShloMosaic.Lib.Pipeline.Value
import Idealize.ShloMosaic.Lib.ValueIdx

set_option maxRecDepth 16384

noncomputable section

namespace Cert.KernelIdeal.Tiles

open Cert.KernelIdeal Cert.KernelIdeal.Gen Cert.GraphConv
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-! ## The first region: rows scaled, then multiplied by the weights -/

/-- A tile's entry is the whole-array function's entry at the node the tile's row stands for, once the tile's operands
    are the arrays read at that node's row, that node's factor, and the weights' column. -/
theorem product_entry (x : (⟨2, ![100000, 64]⟩ : Shape).Idx → EReal) (s : (⟨2, ![100000, 1]⟩ : Shape).Idx → EReal)
    (w : (⟨2, ![64, 64]⟩ : Shape).Idx → EReal)
    (X : Vec Ideal S10000x64 .f32) (S : Vec Ideal S10000x1 .f32) (W : Vec Ideal S64x64 .f32)
    (i : (⟨2, ![100000, 64]⟩ : Shape).Idx) (p : Fin 10000) (q : Fin 64)
    (hX : ∀ k : Fin 64, X (ix2 p k) = x (ix2 (i 0) k))
    (hS : S (ix2 p (0 : Fin 1)) = s (ix2 (i 0) (0 : Fin 1)))
    (hW : ∀ k : Fin 64, W (ix2 k q) = w (ix2 k (i 1))) :
    out0_3 (F := Ideal) X S W (ix2 p q) = scaledProduct x s w i := by
  rw [Bodies.prescale_matmul_apply]
  unfold scaledProduct
  exact Finset.sum_congr rfl fun k _ => by rw [hX, hS, hW]

/-- The index maps over the ten tiles: the rows and the factors move with the output tile along the nodes, the weights
    stay, and tile `t` starts at node 10000·t. -/
theorem index0 : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (1 : Fin 2) = 0 ∧ win0_3.index t (0 : Fin 2) = t.val :=
  (by decide +kernel : ∀ t : Fin grid0.N, _)

/-- What tile `t` writes back is tile `t` of `scaledProduct` of the arrays the region is entered with. -/
theorem flushed0 (c : Dev nD) (t : Fin cfg0.N) :
    (dat0 V c).flushed 3 t
      = ((cfg0.win 3).blk t).view.read (Elt Ideal) (scaledProduct (V c main_arg0) (V c main_v9) (V c main_arg3)) := by
  show (cfg0.win 3).cut (grid0.coords t) ((dat0 V c).after 3 t) = _
  rw [after0_3]
  obtain ⟨e00, e01, e10, e11, e20, e21, e31, e30⟩ := index0 t
  funext y
  obtain ⟨p, q, rfl⟩ : ∃ (p : Fin 10000) (q : Fin 64), y = ix2 p q := ⟨y 0, y 1, eq_ix2 y⟩
  refine product_entry (V c main_arg0) (V c main_v9) (V c main_arg3) _ _ _
    (((cfg0.win 3).blk t).view.emb (ix2 p q)) p q (fun k => ?_) ?_ (fun k => ?_)
  · show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = win0_3.index t (0 : Fin 2) * 10000 + 1 * p.val; omega
    | ⟨1, _⟩ => show win0_0.index t (1 : Fin 2) * 64 + 1 * k.val = k.val; omega
  · show V c main_v9 (((cfg0.win 1).blk t).view.emb (ix2 p (0 : Fin 1))) = _
    refine congrArg (V c main_v9) (funext fun a => Fin.ext ?_)
    match a with
    | ⟨0, _⟩ => show win0_1.index t (0 : Fin 2) * 10000 + 1 * p.val = win0_3.index t (0 : Fin 2) * 10000 + 1 * p.val; omega
    | ⟨1, _⟩ => show win0_1.index t (1 : Fin 2) * 1 + 1 * 0 = 0; omega
  · show V c main_arg3 (((cfg0.win 2).blk t).view.emb (ix2 k q)) = _
    refine congrArg (V c main_arg3) (funext fun a => Fin.ext ?_)
    match a with
    | ⟨0, _⟩ => show win0_2.index t (0 : Fin 2) * 64 + 1 * k.val = k.val; omega
    | ⟨1, _⟩ => show win0_2.index t (1 : Fin 2) * 64 + 1 * q.val = win0_3.index t (1 : Fin 2) * 64 + 1 * q.val; omega

/-- A node is in tile `t` iff each of its coordinates is in the tile's range. -/
theorem mem_tile0 (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v13).slice (win0_3.rect t)).set ↔ _
  rw [View.set_slice_whole, Rect.mem_set_unit]
  exact Iff.rfl

/-- Node `n` lies in tile `n / 10000`. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have ht : (i 0).val / 10000 < grid0.N := by rw [N_0]; omega
  obtain ⟨-, -, -, -, -, -, e31, e30⟩ := index0 ⟨(i 0).val / 10000, ht⟩
  refine ⟨⟨(i 0).val / 10000, ht⟩, flush0_3 _, ?_⟩
  rw [mem_tile0]
  intro a
  match a with
  | ⟨0, _⟩ =>
    show win0_3.index ⟨(i 0).val / 10000, ht⟩ (0 : Fin 2) * 10000 ≤ (i 0).val
      ∧ (i 0).val < win0_3.index ⟨(i 0).val / 10000, ht⟩ (0 : Fin 2) * 10000 + 10000
    rw [e30]; show (i 0).val / 10000 * 10000 ≤ (i 0).val ∧ (i 0).val < (i 0).val / 10000 * 10000 + 10000; omega
  | ⟨1, _⟩ =>
    show win0_3.index ⟨(i 0).val / 10000, ht⟩ (1 : Fin 2) * 64 ≤ (i 1).val
      ∧ (i 1).val < win0_3.index ⟨(i 0).val / 10000, ht⟩ (1 : Fin 2) * 64 + 64
    omega

/-- The first region's output array after the region: `scaledProduct` of the arrays it was entered with. -/
theorem array0 (c : Dev nD) :
    (dat0 V c).arrAt 3 cfg0.N = scaledProduct (V c main_arg0) (V c main_v9) (V c main_arg3) :=
  (dat0 V c).arrAt_eq_of_cover 3 _ (fun t _ => flushed0 V c t) cover0

/-! ## The second region: rows scaled, then shifted by the bias -/

theorem shift_entry (a : (⟨2, ![100000, 64]⟩ : Shape).Idx → EReal) (s : (⟨2, ![100000, 1]⟩ : Shape).Idx → EReal)
    (b : (⟨1, ![64]⟩ : Shape).Idx → EReal)
    (A : Vec Ideal S10000x64 .f32) (S : Vec Ideal S10000x1 .f32) (B : Vec Ideal S64 .f32)
    (i : (⟨2, ![100000, 64]⟩ : Shape).Idx) (p : Fin 10000) (q : Fin 64)
    (hA : A (ix2 p q) = a i)
    (hS : S (ix2 p (0 : Fin 1)) = s (ix2 (i 0) (0 : Fin 1)))
    (hB : B (ix1 q) = b (ix1 (i 1))) :
    out1_3 (F := Ideal) A S B (ix2 p q) = scaledShift a s b i := by
  rw [Bodies.postscale_bias_apply]
  unfold scaledShift
  rw [hA, hS, hB]

theorem index1 : ∀ t : Fin cfg1.N,
    win1_0.index t (0 : Fin 2) = win1_3.index t (0 : Fin 2) ∧ win1_0.index t (1 : Fin 2) = win1_3.index t (1 : Fin 2)
    ∧ win1_1.index t (0 : Fin 2) = win1_3.index t (0 : Fin 2) ∧ win1_1.index t (1 : Fin 2) = 0
    ∧ win1_2.index t (0 : Fin 1) = 0
    ∧ win1_3.index t (1 : Fin 2) = 0 ∧ win1_3.index t (0 : Fin 2) = t.val :=
  (by decide +kernel : ∀ t : Fin grid1.N, _)

theorem flushed1 (c : Dev nD) (t : Fin cfg1.N) :
    (dat1 V c).flushed 3 t
      = ((cfg1.win 3).blk t).view.read (Elt Ideal) (scaledShift (V c main_v24) (V c main_v12) (V c main_arg4)) := by
  show (cfg1.win 3).cut (grid1.coords t) ((dat1 V c).after 3 t) = _
  rw [after1_3]
  obtain ⟨e00, e01, e10, e11, e20, e31, e30⟩ := index1 t
  funext y
  obtain ⟨p, q, rfl⟩ : ∃ (p : Fin 10000) (q : Fin 64), y = ix2 p q := ⟨y 0, y 1, eq_ix2 y⟩
  refine shift_entry (V c main_v24) (V c main_v12) (V c main_arg4) _ _ _
    (((cfg1.win 3).blk t).view.emb (ix2 p q)) p q ?_ ?_ ?_
  · show V c main_v24 (((cfg1.win 0).blk t).view.emb (ix2 p q)) = _
    refine congrArg (V c main_v24) (funext fun a => Fin.ext ?_)
    match a with
    | ⟨0, _⟩ => show win1_0.index t (0 : Fin 2) * 10000 + 1 * p.val = win1_3.index t (0 : Fin 2) * 10000 + 1 * p.val; omega
    | ⟨1, _⟩ => show win1_0.index t (1 : Fin 2) * 64 + 1 * q.val = win1_3.index t (1 : Fin 2) * 64 + 1 * q.val; omega
  · show V c main_v12 (((cfg1.win 1).blk t).view.emb (ix2 p (0 : Fin 1))) = _
    refine congrArg (V c main_v12) (funext fun a => Fin.ext ?_)
    match a with
    | ⟨0, _⟩ => show win1_1.index t (0 : Fin 2) * 10000 + 1 * p.val = win1_3.index t (0 : Fin 2) * 10000 + 1 * p.val; omega
    | ⟨1, _⟩ => show win1_1.index t (1 : Fin 2) * 1 + 1 * 0 = 0; omega
  · show V c main_arg4 (((cfg1.win 2).blk t).view.emb (ix1 q)) = _
    refine congrArg (V c main_arg4) (funext fun a => Fin.ext ?_)
    match a with
    | ⟨0, _⟩ => show win1_2.index t (0 : Fin 1) * 64 + 1 * q.val = win1_3.index t (1 : Fin 2) * 64 + 1 * q.val; omega

theorem mem_tile1 (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v25).slice (win1_3.rect t)).set ↔ _
  rw [View.set_slice_whole, Rect.mem_set_unit]
  exact Iff.rfl

theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have ht : (i 0).val / 10000 < grid1.N := by rw [N_1]; omega
  obtain ⟨-, -, -, -, -, e31, e30⟩ := index1 ⟨(i 0).val / 10000, ht⟩
  refine ⟨⟨(i 0).val / 10000, ht⟩, flush1_3 _, ?_⟩
  rw [mem_tile1]
  intro a
  match a with
  | ⟨0, _⟩ =>
    show win1_3.index ⟨(i 0).val / 10000, ht⟩ (0 : Fin 2) * 10000 ≤ (i 0).val
      ∧ (i 0).val < win1_3.index ⟨(i 0).val / 10000, ht⟩ (0 : Fin 2) * 10000 + 10000
    rw [e30]; show (i 0).val / 10000 * 10000 ≤ (i 0).val ∧ (i 0).val < (i 0).val / 10000 * 10000 + 10000; omega
  | ⟨1, _⟩ =>
    show win1_3.index ⟨(i 0).val / 10000, ht⟩ (1 : Fin 2) * 64 ≤ (i 1).val
      ∧ (i 1).val < win1_3.index ⟨(i 0).val / 10000, ht⟩ (1 : Fin 2) * 64 + 64
    omega

/-- The second region's output array after the region: `scaledShift` of the arrays it was entered with. -/
theorem array1 (c : Dev nD) :
    (dat1 V c).arrAt 3 cfg1.N = scaledShift (V c main_v24) (V c main_v12) (V c main_arg4) :=
  (dat1 V c).arrAt_eq_of_cover 3 _ (fun t _ => flushed1 V c t) cover1

end Cert.KernelIdeal.Tiles

end
-- ==== Proof.Boundaries.lean ====
/-
  What the two regions are entered with, and the result buffer as one term of the launch memory.

  Between the launch and the first region the host computes, from the two index vectors, each node's out-degree and
  in-degree (a scatter-add of ones), clamps them below at one, takes the reciprocal square root and lays the result out
  as a column: `factor idx`. The first region is entered with the features, `factor src` and the weights, so its output
  array is `scaledProduct features (factor src) weights`. Between the regions the host gathers that array's rows at the
  source nodes (negative indices counted from the end) and scatter-adds them at the destination nodes: `aggregate`. The
  second region is entered with that sum, `factor dst` and the bias, so the result is their `scaledShift`.

  The host stretches are read for any float values (nothing of the arithmetic is opened); only the two regions'
  closed forms are statements over the extended reals.
-/
import proofs.«139091_j35871566856870_2_alg».proof.Proof.Gen.KernelIdeal.Frame
import proofs.«139091_j35871566856870_2_alg».proof.Proof.Tiles
import Idealize.ShloMosaic.Lib.StableHlo.Run
import Idealize.ShloMosaic.PureOps.Ideal

set_option maxRecDepth 16384

noncomputable section

namespace Cert.KernelIdeal.Bound

open Cert.KernelIdeal Cert.KernelIdeal.Gen Cert.GraphConv
open Idealize.ShloMosaic Idealize.ShloMosaic.TcCoe Idealize.SL.Sem Idealize.ShloMosaic.StableHlo

section AnyFloats

variable {F : FTy → Type} [FloatOps F]

/-- The column of per-node factors from an index vector: the reciprocal square root of the number of edges naming each
    node, that number clamped below at one. -/
def factor (idx : (⟨S1200000, .i32⟩ : BufTy).Contents (Elt F)) : (⟨S100000x1, .f32⟩ : BufTy).Contents (Elt F) :=
  broadcastInDim S100000x1 ![0] bcast_S100000_S100000x1_0
    (Host.rsqrt (F := F) (maximumf (F := F) (broadcastInDim S100000 ![] bcast_S_S100000 (id (constant (F := F) S_ .f32 0x3F800000#32)))
      (Host.scatterAdd (F := F) scatter_S100000_S1200000x1_S1200000_n_0_0_1
        (broadcastInDim S100000 ![] bcast_S_S100000 (constant (F := F) S_ .f32 0x00000000#32))
        (broadcastInDim S1200000x1 ![0] bcast_S1200000_S1200000x1_0 idx)
        (broadcastInDim S1200000 ![] bcast_S_S1200000 (constant (F := F) S_ .f32 0x3F800000#32)))))

/-- The source-node indices with a negative one counted from the end, as a column. -/
def sources (src : (⟨S1200000, .i32⟩ : BufTy).Contents (Elt F)) : (⟨S1200000x1, .i32⟩ : BufTy).Contents (Elt F) :=
  broadcastInDim S1200000x1 ![0] bcast_S1200000_S1200000x1_0
    (select (cmpi .slt src (broadcastInDim S1200000 ![] bcast_S_S1200000 (constantI S_ 32 0#32)))
      (addi src (broadcastInDim S1200000 ![] bcast_S_S1200000 (constantI S_ 32 100000#32))) src)

/-- Rows summed into the destination nodes. -/
def summed (rows : (⟨S1200000x64, .f32⟩ : BufTy).Contents (Elt F)) (dst : (⟨S1200000, .i32⟩ : BufTy).Contents (Elt F)) :
    (⟨S100000x64, .f32⟩ : BufTy).Contents (Elt F) :=
  Host.scatterAdd (F := F) scatter_S100000x64_S1200000x1_S1200000x64_1_0_0_1
    (broadcastInDim S100000x64 ![] bcast_S_S100000x64 (constant (F := F) S_ .f32 0x00000000#32))
    (broadcastInDim S1200000x1 ![0] bcast_S1200000_S1200000x1_0 dst) rows

/-- The rows of `h` (kept in the narrow format) at the source nodes, widened and summed into the destination nodes. -/
def aggregate (h : (⟨S100000x64, .bf16⟩ : BufTy).Contents (Elt F))
    (src dst : (⟨S1200000, .i32⟩ : BufTy).Contents (Elt F)) : (⟨S100000x64, .f32⟩ : BufTy).Contents (Elt F) :=
  summed (extf (F := F) .f32 (Host.gather gather_S100000x64_S1200000x1_S1200000x64_1_0_n_n_0_1_164 h (sources src))
    bitsLt_bf16_f32) dst

variable (m : (ℓ : Loc nD τ sig) → Buf (Elt F) ℓ) (ρ : Dev nD → PrngReg)

/-! ## Before the first region -/

theorem entry_features (c : Dev nD) : W5 m ρ c (Proc.devRef .tc main_arg0) = m ((c : Thread nD τ).loc main_arg0) := by
  show StableHlo.after hostOps0_4 (StableHlo.after hostOps0_3 (StableHlo.after hostOps0_2 (StableHlo.after hostOps0_1 (StableHlo.after hostOps0 (W0 m ρ c))))) (Proc.devRef .tc main_arg0) = _
  simp only [hostOps0, hostOps0_1, hostOps0_2, hostOps0_3, hostOps0_4]
  after_results

theorem entry_src (c : Dev nD) : W5 m ρ c (Proc.devRef .tc main_arg1) = m ((c : Thread nD τ).loc main_arg1) := by
  show StableHlo.after hostOps0_4 (StableHlo.after hostOps0_3 (StableHlo.after hostOps0_2 (StableHlo.after hostOps0_1 (StableHlo.after hostOps0 (W0 m ρ c))))) (Proc.devRef .tc main_arg1) = _
  simp only [hostOps0, hostOps0_1, hostOps0_2, hostOps0_3, hostOps0_4]
  after_results

theorem entry_dst (c : Dev nD) : W5 m ρ c (Proc.devRef .tc main_arg2) = m ((c : Thread nD τ).loc main_arg2) := by
  show StableHlo.after hostOps0_4 (StableHlo.after hostOps0_3 (StableHlo.after hostOps0_2 (StableHlo.after hostOps0_1 (StableHlo.after hostOps0 (W0 m ρ c))))) (Proc.devRef .tc main_arg2) = _
  simp only [hostOps0, hostOps0_1, hostOps0_2, hostOps0_3, hostOps0_4]
  after_results

theorem entry_weights (c : Dev nD) : W5 m ρ c (Proc.devRef .tc main_arg3) = m ((c : Thread nD τ).loc main_arg3) := by
  show StableHlo.after hostOps0_4 (StableHlo.after hostOps0_3 (StableHlo.after hostOps0_2 (StableHlo.after hostOps0_1 (StableHlo.after hostOps0 (W0 m ρ c))))) (Proc.devRef .tc main_arg3) = _
  simp only [hostOps0, hostOps0_1, hostOps0_2, hostOps0_3, hostOps0_4]
  after_results

theorem entry_bias (c : Dev nD) : W5 m ρ c (Proc.devRef .tc main_arg4) = m ((c : Thread nD τ).loc main_arg4) := by
  show StableHlo.after hostOps0_4 (StableHlo.after hostOps0_3 (StableHlo.after hostOps0_2 (StableHlo.after hostOps0_1 (StableHlo.after hostOps0 (W0 m ρ c))))) (Proc.devRef .tc main_arg4) = _
  simp only [hostOps0, hostOps0_1, hostOps0_2, hostOps0_3, hostOps0_4]
  after_results

/-- The factors of the source side: what the first region scales the rows by. -/
theorem entry_pre (c : Dev nD) : W5 m ρ c (Proc.devRef .tc main_v9) = factor (m ((c : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_v9) = _
  simp only [hostOps0, hostOps0_1, hostOps0_2, hostOps0_3, hostOps0_4]
  after_results
  rfl

/-- The factors of the destination side: what the second region scales the rows by. -/
theorem entry_post (c : Dev nD) : W5 m ρ c (Proc.devRef .tc main_v12) = factor (m ((c : Thread nD τ).loc main_arg2)) := by
  show StableHlo.after hostOps0_4 (StableHlo.after hostOps0_3 (StableHlo.after hostOps0_2 (StableHlo.after hostOps0_1 (StableHlo.after hostOps0 (W0 m ρ c))))) (Proc.devRef .tc main_v12) = _
  simp only [hostOps0, hostOps0_1, hostOps0_2, hostOps0_3, hostOps0_4]
  after_results
  rfl

/-! ## Before the second region -/

theorem entry_sum_of (c : Dev nD) : W7 m ρ c (Proc.devRef .tc main_v24)
    = aggregate (W6 m ρ c (Proc.devRef .tc main_v13)) (W6 m ρ c (Proc.devRef .tc main_arg1)) (W6 m ρ c (Proc.devRef .tc main_arg2)) := by
  show StableHlo.after hostOps1 (W6 m ρ c) (Proc.devRef .tc main_v24) = _
  simp only [hostOps1]
  after_results
  rfl

theorem entry_post' (c : Dev nD) : W7 m ρ c (Proc.devRef .tc main_v12) = factor (m ((c : Thread nD τ).loc main_arg2)) := by
  have e : W7 m ρ c (Proc.devRef .tc main_v12) = W6 m ρ c (Proc.devRef .tc main_v12) := by
    show StableHlo.after hostOps1 (W6 m ρ c) (Proc.devRef .tc main_v12) = _
    simp only [hostOps1]
    after_results
  rw [e, W6_of_ne m ρ c main_v12 (by decide), entry_post]

theorem entry_bias' (c : Dev nD) : W7 m ρ c (Proc.devRef .tc main_arg4) = m ((c : Thread nD τ).loc main_arg4) := by
  have e : W7 m ρ c (Proc.devRef .tc main_arg4) = W6 m ρ c (Proc.devRef .tc main_arg4) := by
    show StableHlo.after hostOps1 (W6 m ρ c) (Proc.devRef .tc main_arg4) = _
    simp only [hostOps1]
    after_results
  rw [e, W6_of_ne m ρ c main_arg4 (by decide), entry_bias]

theorem exit_src (c : Dev nD) : W6 m ρ c (Proc.devRef .tc main_arg1) = m ((c : Thread nD τ).loc main_arg1) := by
  rw [W6_of_ne m ρ c main_arg1 (by decide), entry_src]

theorem exit_dst (c : Dev nD) : W6 m ρ c (Proc.devRef .tc main_arg2) = m ((c : Thread nD τ).loc main_arg2) := by
  rw [W6_of_ne m ρ c main_arg2 (by decide), entry_dst]

end AnyFloats

/-! ## Over the extended reals: the two regions' arrays, and the result -/

variable (m : (ℓ : Loc nD τ sig) → Buf (Elt Ideal) ℓ) (ρ : Dev nD → PrngReg)

/-- The first region's output array: the scaled rows times the weights. -/
theorem hidden (c : Dev nD) : W6 m ρ c (Proc.devRef .tc main_v13)
    = scaledProduct (m ((c : Thread nD τ).loc main_arg0)) (factor (m ((c : Thread nD τ).loc main_arg1))) (m ((c : Thread nD τ).loc main_arg3)) := by
  refine (W6_arr m ρ c 3).trans ((Tiles.array0 (V5 m ρ) c).trans ?_)
  show scaledProduct (W5 m ρ c (Proc.devRef .tc main_arg0)) (W5 m ρ c (Proc.devRef .tc main_v9)) (W5 m ρ c (Proc.devRef .tc main_arg3)) = _
  rw [entry_features, entry_pre, entry_weights]

/-- The result buffer at the end of the run, as one term of the arguments. -/
def result (x : (⟨S100000x64, .f32⟩ : BufTy).Contents (Elt Ideal)) (src dst : (⟨S1200000, .i32⟩ : BufTy).Contents (Elt Ideal))
    (w : (⟨S64x64, .f32⟩ : BufTy).Contents (Elt Ideal)) (b : (⟨S64, .f32⟩ : BufTy).Contents (Elt Ideal)) :
    (⟨S100000x64, .f32⟩ : BufTy).Contents (Elt Ideal) :=
  scaledShift (aggregate (scaledProduct x (factor src) w) src dst) (factor dst) b

theorem result_eq (c : Dev nD) : W8 m ρ c (Proc.devRef .tc main_v25)
    = result (m ((c : Thread nD τ).loc main_arg0)) (m ((c : Thread nD τ).loc main_arg1)) (m ((c : Thread nD τ).loc main_arg2))
        (m ((c : Thread nD τ).loc main_arg3)) (m ((c : Thread nD τ).loc main_arg4)) := by
  refine (W8_arr m ρ c 3).trans ((Tiles.array1 (V7 m ρ) c).trans ?_)
  show scaledShift (W7 m ρ c (Proc.devRef .tc main_v24)) (W7 m ρ c (Proc.devRef .tc main_v12)) (W7 m ρ c (Proc.devRef .tc main_arg4)) = _
  rw [entry_sum_of, entry_post', entry_bias', hidden, exit_src, exit_dst]
  unfold result
  rfl

end Cert.KernelIdeal.Bound

end
-- ==== Proof.KernelValue.lean ====
/-
  The idealized kernel's run, read: the result buffer ends at `result` of the arguments, the arguments unchanged.

  The run pins every unscoped buffer to the contents the fold through @main assigns it; at the result buffer that is
  the second region's output array, which is `scaledShift` of what the region was entered with, and so on back to the
  launch memory; at an argument buffer the fold walks back to the launch contents.
-/
import proofs.«139091_j35871566856870_2_alg».proof.Proof.HeldRun
import proofs.«139091_j35871566856870_2_alg».proof.Proof.Boundaries

set_option maxRecDepth 16384

noncomputable section

namespace Cert.KernelIdeal.Valued

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

theorem run : θ_run defs (onTc (τ := τ) (main (F := Ideal))) ⟨m, fun _ => 0, ρ⟩ (fun r => ∀ c : Dev nD,
      r.2.mem ((c.tc : Thread nD τ).loc main_v25)
        = Bound.result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨(h c _ (mem_uc main_v25 (by decide))).trans (Bound.result_eq m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)
    (Held.run m ρ)

end Cert.KernelIdeal.Valued

end
-- ==== Proof.Reference.lean ====
/-
  The reference computes the same function.

  Read stage by stage, the reference's dense product — the features times the factor column repeated along the lanes,
  then the host's contraction with the weights — is `scaledProduct` of the features, the factor column and the weights;
  and its last three stages — the aggregated rows times the other factor column repeated along the lanes, plus the bias
  repeated down the rows — are `scaledShift`. The stages in between (the degree counts, the clamp, the reciprocal square
  root, the gather and the scatter-add) are the same operations on the same operands in both programs, so nothing of
  them is opened; the kernel's widening of its narrow rows is the identity over the extended reals. So the two results
  are one term.
-/
import proofs.«139091_j35871566856870_2_alg».proof.Proof.Gen.ReferenceIdeal.Read
import proofs.«139091_j35871566856870_2_alg».proof.Proof.Boundaries
import proofs.«139091_j35871566856870_2_alg».proof.Proof.Spec

set_option maxRecDepth 16384

noncomputable section

namespace Cert.GraphConv.Reference

open Cert.GraphConv
open Cert.ReferenceIdeal Cert.ReferenceIdeal.Read
open Idealize.ShloMosaic Idealize.ShloMosaic.TcCoe Idealize.ShloMosaic.ValueIdx
open scoped BigOperators

/-! ## The host operations both programs share, for any float values -/

section AnyFloats

variable {F : FTy → Type} [FloatOps F]

/-- The reference's factor column of the source side is the kernel's. -/
theorem pre_eq (x1 : (⟨S1200000, .i32⟩ : BufTy).Contents (Elt F)) :
    val_main_v9 (F := F) x1 = Cert.KernelIdeal.Bound.factor (F := F) x1 := rfl

/-- The reference's factor column of the destination side is the kernel's. -/
theorem post_eq (x2 : (⟨S1200000, .i32⟩ : BufTy).Contents (Elt F)) :
    val_main_v25 (F := F) x2 = Cert.KernelIdeal.Bound.factor (F := F) x2 := rfl

/-- The reference's aggregation gathers its dense product's rows at the kernel's source column and sums them into the
    destination nodes as the kernel does. -/
theorem sum_eq (x0 : (⟨S100000x64, .f32⟩ : BufTy).Contents (Elt F)) (x1 x2 : (⟨S1200000, .i32⟩ : BufTy).Contents (Elt F))
    (x3 : (⟨S64x64, .f32⟩ : BufTy).Contents (Elt F)) :
    val_main_v22 (F := F) x0 x1 x2 x3
      = Cert.KernelIdeal.Bound.summed (F := F)
          (Host.gather Cert.KernelIdeal.gather_S100000x64_S1200000x1_S1200000x64_1_0_n_n_0_1_164
            (val_main_v12 (F := F) x0 x1 x3) (Cert.KernelIdeal.Bound.sources (F := F) x1)) x2 := rfl

end AnyFloats

/-! ## The dense steps, over the extended reals -/

/-- The reference's dense product is the rows scaled by the factor column, times the weights. -/
theorem product_eq (x0 : (⟨S100000x64, .f32⟩ : BufTy).Contents (Elt Ideal)) (x1 : (⟨S1200000, .i32⟩ : BufTy).Contents (Elt Ideal))
    (x3 : (⟨S64x64, .f32⟩ : BufTy).Contents (Elt Ideal)) :
    val_main_v12 (F := Ideal) x0 x1 x3 = scaledProduct x0 (val_main_v9 (F := Ideal) x1) x3 := by
  funext i
  rw [val_main_v12_apply]
  unfold scaledProduct
  refine Finset.sum_congr rfl fun k _ => ?_
  rw [val_main_v11_apply, val_main_v10_apply]
  have e1 : lidx_main_v12 i k = ix2 (i 0) k :=
    funext fun a => Fin.ext (by match a with | ⟨0, _⟩ => rfl | ⟨1, _⟩ => rfl)
  have e2 : idx_main_v10 (lidx_main_v12 i k) = ix2 (i 0) (0 : Fin 1) :=
    funext fun a => Fin.ext (by match a with | ⟨0, _⟩ => rfl | ⟨1, _⟩ => rfl)
  have e3 : ridx_main_v12 i k = ix2 k (i 1) :=
    funext fun a => Fin.ext (by match a with | ⟨0, _⟩ => rfl | ⟨1, _⟩ => rfl)
  rw [e2, e1, e3, Ideal.mulf_def]
  rfl

/-- The reference's last stages scale the aggregated rows by the other factor column and add the bias. -/
theorem shift_eq (x0 : (⟨S100000x64, .f32⟩ : BufTy).Contents (Elt Ideal)) (x1 x2 : (⟨S1200000, .i32⟩ : BufTy).Contents (Elt Ideal))
    (x3 : (⟨S64x64, .f32⟩ : BufTy).Contents (Elt Ideal)) (x4 : (⟨S64, .f32⟩ : BufTy).Contents (Elt Ideal)) :
    val_main_v30 (F := Ideal) x0 x1 x2 x3 x4
      = scaledShift (val_main_v22 (F := Ideal) x0 x1 x2 x3) (val_main_v25 (F := Ideal) x2) x4 := by
  funext i
  rw [val_main_v30_apply, val_main_v27_apply, val_main_v26_apply, val_main_v29_apply, val_main_v28_apply]
  unfold scaledShift
  have e1 : idx_main_v26 i = ix2 (i 0) (0 : Fin 1) :=
    funext fun a => Fin.ext (by match a with | ⟨0, _⟩ => rfl | ⟨1, _⟩ => rfl)
  have e2 : idx_main_v28 (idx_main_v29 i) = ix1 (i 1) :=
    funext fun a => Fin.ext (by match a with | ⟨0, _⟩ => rfl)
  rw [e1, e2, Ideal.addf_def, Ideal.mulf_def]
  rfl

/-- Over the extended reals the kernel's widening of the gathered rows is the identity. -/
theorem widen_eq (h : (⟨Cert.KernelIdeal.S100000x64, .bf16⟩ : BufTy).Contents (Elt Ideal))
    (src dst : (⟨Cert.KernelIdeal.S1200000, .i32⟩ : BufTy).Contents (Elt Ideal)) :
    Cert.KernelIdeal.Bound.aggregate (F := Ideal) h src dst
      = Cert.KernelIdeal.Bound.summed (F := Ideal)
          (Host.gather Cert.KernelIdeal.gather_S100000x64_S1200000x1_S1200000x64_1_0_n_n_0_1_164 h
            (Cert.KernelIdeal.Bound.sources (F := Ideal) src)) dst := by
  unfold Cert.KernelIdeal.Bound.aggregate
  exact congrArg (fun r => Cert.KernelIdeal.Bound.summed (F := Ideal) r dst) (funext fun i => rfl)

/-! ## The two results are one term -/

theorem result_eq (x0 : (⟨S100000x64, .f32⟩ : BufTy).Contents (Elt Ideal)) (x1 x2 : (⟨S1200000, .i32⟩ : BufTy).Contents (Elt Ideal))
    (x3 : (⟨S64x64, .f32⟩ : BufTy).Contents (Elt Ideal)) (x4 : (⟨S64, .f32⟩ : BufTy).Contents (Elt Ideal)) :
    val_main_v30 (F := Ideal) x0 x1 x2 x3 x4 = Cert.KernelIdeal.Bound.result x0 x1 x2 x3 x4 := by
  rw [shift_eq, sum_eq, product_eq, pre_eq, post_eq]
  unfold Cert.KernelIdeal.Bound.result
  rw [widen_eq]

end Cert.GraphConv.Reference

end
-- ==== Proof.lean ====
/-
  A graph convolution with both-sided degree normalization, tiled, against its plain form.

  Both programs count each node's outgoing and incoming edges, clamp the counts below at one and take reciprocal
  square roots; scale each node's feature row by the outgoing factor and multiply by the weights; gather the rows at
  the edges' source nodes and add them into the destination nodes; scale each node's sum by the incoming factor and
  add the bias. The kernel does the two dense steps tile by tile (ten tiles of 10000 nodes), narrowing the product to
  sixteen bits and back, which over the extended reals is the identity; the reference does them whole. Tile by tile or
  whole, the dense steps are the same entrywise functions (`scaledProduct`, `scaledShift`), and every other step is
  the same operation on the same operands, so the two results are one term of the arguments. No law beyond reading the
  contractions as sums is used, and the finiteness of the inputs is never needed.

  The three frames: the kernel's two are generated with the program; the reference's is its run with the result
  dropped. The idealized kernel is the kernel's own text read over the extended reals (no rewrite was applied).
-/
import proofs.«139091_j35871566856870_2_alg».proof.Defs
import proofs.«139091_j35871566856870_2_alg».proof.Proof.Gen.Kernel
import proofs.«139091_j35871566856870_2_alg».proof.Proof.Gen.Kernel.Skeleton
import proofs.«139091_j35871566856870_2_alg».proof.Proof.Gen.Kernel.Launch
import proofs.«139091_j35871566856870_2_alg».proof.Proof.Gen.Kernel.Points
import proofs.«139091_j35871566856870_2_alg».proof.Proof.Gen.Kernel.Frame
import proofs.«139091_j35871566856870_2_alg».proof.Proof.Gen.KernelIdeal
import proofs.«139091_j35871566856870_2_alg».proof.Proof.Gen.KernelIdeal.Skeleton
import proofs.«139091_j35871566856870_2_alg».proof.Proof.Gen.KernelIdeal.Launch
import proofs.«139091_j35871566856870_2_alg».proof.Proof.Gen.KernelIdeal.Points
import proofs.«139091_j35871566856870_2_alg».proof.Proof.Gen.KernelIdeal.Frame
import proofs.«139091_j35871566856870_2_alg».proof.Proof.Gen.ReferenceIdeal
import proofs.«139091_j35871566856870_2_alg».proof.Proof.Gen.ReferenceIdeal.Run
import proofs.«139091_j35871566856870_2_alg».proof.Proof.Gen.ReferenceIdeal.Read
import proofs.«139091_j35871566856870_2_alg».proof.Proof.Gen.Pre_finite_inputs
import proofs.«139091_j35871566856870_2_alg».proof.Proof.KernelValue
import proofs.«139091_j35871566856870_2_alg».proof.Proof.Reference
import Idealize.ShloMosaic.Adequacy
import Idealize.ShloMosaic.Init

noncomputable section

namespace Cert.Proof

open Idealize.ShloMosaic Idealize.SL.Sem

theorem frame_kernel [Cert.Kernel.Facts] [Cert.Pre_finite_inputs.Facts] : Cert.frame_Kernel :=
  fun m ρ _ => Cert.Kernel.Gen.frame m ρ

theorem frame_kernel_ideal [Cert.KernelIdeal.Facts] [Cert.Pre_finite_inputs.Facts] : Cert.frame_KernelIdeal :=
  fun m ρ _ => Cert.KernelIdeal.Gen.frame m ρ

theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both runs end with the result at `result` of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Valued.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.GraphConv.Reference.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
